-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S11008x4096 : Shape := ⟨2, ![11008, 4096]⟩
abbrev S11008x32 : Shape := ⟨2, ![11008, 32]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S11008x32 : S_.BroadcastsInDim S11008x32 (![] : Fin 0 → Fin S11008x32.rank)
  reducesTo_S11008x32_S_d0_1 : S11008x32.ReducesTo [0, 1] S_

variable [Facts]

def fn {F : FTy → Type} [FloatOps F] (main_arg0 : FVec F S4096x4096 .f32) (main_arg1 : IVec S11008x4096 32) (main_arg2 : FVec F S11008x32 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  main_v8
-- ==== Kernel.lean ====
abbrev S4096x4096 : Shape := ⟨2, ![4096, 4096]⟩
abbrev S11008x4096 : Shape := ⟨2, ![11008, 4096]⟩
abbrev S11008x32 : Shape := ⟨2, ![11008, 32]⟩
abbrev S_ : Shape := ⟨0, ![]⟩
abbrev S11264x4096 : Shape := ⟨2, ![11264, 4096]⟩
abbrev S11264x32 : Shape := ⟨2, ![11264, 32]⟩
abbrev S11264x8x4 : Shape := ⟨3, ![11264, 8, 4]⟩
abbrev S8x11264x4 : Shape := ⟨3, ![8, 11264, 4]⟩
abbrev S4096x11264 : Shape := ⟨2, ![4096, 11264]⟩
abbrev S2048x512 : Shape := ⟨2, ![2048, 512]⟩
abbrev S1024x512 : Shape := ⟨2, ![1024, 512]⟩
abbrev S1x1024x4 : Shape := ⟨3, ![1, 1024, 4]⟩
abbrev S2048x1024 : Shape := ⟨2, ![2048, 1024]⟩
abbrev S1024x4x128 : Shape := ⟨3, ![1024, 4, 128]⟩
abbrev S1024x4 : Shape := ⟨2, ![1024, 4]⟩
abbrev S1024x4x1 : Shape := ⟨3, ![1024, 4, 1]⟩
abbrev S4096x11008 : Shape := ⟨2, ![4096, 11008]⟩

abbrev nBuf : Space → Nat
  | .hbm => 14
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S11008x4096, .i32⟩
  | .hbm, ⟨2, _⟩ => ⟨S11008x32, .f32⟩
  | .hbm, ⟨3, _⟩ => ⟨S_, .i32⟩
  | .hbm, ⟨4, _⟩ => ⟨S_, .i32⟩
  | .hbm, ⟨5, _⟩ => ⟨S11264x4096, .i32⟩
  | .hbm, ⟨6, _⟩ => ⟨S_, .i32⟩
  | .hbm, ⟨7, _⟩ => ⟨S_, .f32⟩
  | .hbm, ⟨8, _⟩ => ⟨S11264x32, .f32⟩
  | .hbm, ⟨9, _⟩ => ⟨S4096x4096, .bf16⟩
  | .hbm, ⟨10, _⟩ => ⟨S11264x8x4, .f32⟩
  | .hbm, ⟨11, _⟩ => ⟨S8x11264x4, .f32⟩
  | .hbm, ⟨12, _⟩ => ⟨S4096x11264, .f32⟩
  | .hbm, ⟨13, _⟩ => ⟨S4096x11008, .f32⟩
  | .local _ .vmem, ⟨0, _⟩ => ⟨S2048x512, .bf16⟩
  | .local _ .vmem, ⟨1, _⟩ => ⟨S2048x512, .bf16⟩
  | .local _ .vmem, ⟨2, _⟩ => ⟨S1024x512, .i32⟩
  | .local _ .vmem, ⟨3, _⟩ => ⟨S1024x512, .i32⟩
  | .local _ .vmem, ⟨4, _⟩ => ⟨S1x1024x4, .f32⟩
  | .local _ .vmem, ⟨5, _⟩ => ⟨S1x1024x4, .f32⟩
  | .local _ .vmem, ⟨6, _⟩ => ⟨S2048x1024, .f32⟩
  | .local _ .vmem, ⟨7, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 11, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  pads_S11008x4096_S11264x4096_02560_000 : S11008x4096.Pads (![0, 0] : Fin 2 → Nat) ![256, 0] ![0, 0] S11264x4096
  h_S_ : 0 < S_.numel
  pads_S11008x32_S11264x32_02560_000 : S11008x32.Pads (![0, 0] : Fin 2 → Nat) ![256, 0] ![0, 0] S11264x32
  bitsLt_bf16_f32 : FTy.bits .bf16 < FTy.bits .f32
  shapeCasts_S11264x32_S11264x8x4 : S11264x32.ShapeCasts S11264x8x4
  transposes_S11264x8x4_S8x11264x4_1_0_2 : S11264x8x4.Transposes [1, 0, 2] S8x11264x4
  inb_S2048x1024_S2048x1024_0_0 : ∀ a, (![0, 0] : Fin 2 → Nat) a + S2048x1024.size a ≤ S2048x1024.size a
  h_S2048x1024 : 0 < S2048x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x512_S1024x4x128 : S1024x512.ShapeCasts S1024x4x128
  inb_S1x1024x4_S1x1024x4_0_0_0 : ∀ a, (![0, 0, 0] : Fin 3 → Nat) a + S1x1024x4.size a ≤ S1x1024x4.size a
  h_S1x1024x4 : 0 < S1x1024x4.numel
  shapeCasts_S1x1024x4_S1024x4 : S1x1024x4.ShapeCasts S1024x4
  shapeCasts_S1024x4_S1024x4x1 : S1024x4.ShapeCasts S1024x4x1
  shapeCasts_S1024x4x1_S1024x4x1 : S1024x4x1.ShapeCasts S1024x4x1
  broadcasts_S1024x4x1_S1024x4x128 : S1024x4x1.Broadcasts S1024x4x128
  shapeCasts_S1024x4x128_S1024x512 : S1024x4x128.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S2048x1024_S2048x1024 : S2048x1024.ShapeCasts S2048x1024
  slices_S4096x11264_S4096x11008_0_0 : S4096x11264.Slices ![0, 0] S4096x11008
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .bf16 = 32 ∨ (Rect.block (s := S4096x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S11264x4096.size a
  hwx0_1 : ∀ i : grid0.Coords, EltTy.bits .i32 = 32 ∨ (Rect.block (s := S11264x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x4.size a ≤ S8x11264x4.size a
  hwx0_2 : ∀ i : grid0.Coords, EltTy.bits .f32 = 32 ∨ (Rect.block (s := S8x11264x4) S1x1024x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x11264.size a
  hwx0_3 : ∀ i : grid0.Coords, EltTy.bits .f32 = 32 ∨ (Rect.block (s := S4096x11264) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S11008x4096 : Shape := ⟨2, ![11008, 4096]⟩
abbrev S11008x32 : Shape := ⟨2, ![11008, 32]⟩
abbrev S11008x32x128 : Shape := ⟨3, ![11008, 32, 128]⟩
abbrev S11008x32x1 : Shape := ⟨3, ![11008, 32, 1]⟩
abbrev S4096x11008 : Shape := ⟨2, ![4096, 11008]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S11008x4096, .i32⟩
  | .hbm, ⟨2, _⟩ => ⟨S11008x32, .f32⟩
  | .hbm, ⟨3, _⟩ => ⟨S11008x4096, .f32⟩
  | .hbm, ⟨4, _⟩ => ⟨S11008x32x128, .f32⟩
  | .hbm, ⟨5, _⟩ => ⟨S11008x32x1, .f32⟩
  | .hbm, ⟨6, _⟩ => ⟨S11008x32x128, .f32⟩
  | .hbm, ⟨7, _⟩ => ⟨S11008x32x128, .f32⟩
  | .hbm, ⟨8, _⟩ => ⟨S11008x4096, .f32⟩
  | .hbm, ⟨9, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  dot_S4096x4096_S11008x4096_S4096x11008_1_1_0_0_n_n_wf : DotDims.WF S4096x4096 S11008x4096 S4096x11008 [1] [1] [0] [0] [] []

variable [Facts₀]

def dot_S4096x4096_S11008x4096_S4096x11008_1_1_0_0_n_n : DotDims S4096x4096 S11008x4096 S4096x11008 where
  lhsContracting := [1]
  rhsContracting := [1]
  lhsNonContracting := [0]
  rhsNonContracting := [0]
  lhsBatch := []
  rhsBatch := []
  wf := dot_S4096x4096_S11008x4096_S4096x11008_1_1_0_0_n_n_wf

class Facts : Prop extends Facts₀ where

variable [Facts]
-- ==== Proof.LibBlockedSum.lean ====
/-
  A sum accumulated block by block: a general lemma.

  A long sum `∑ n < J * b, g n` (the contraction of a matrix product, say) is often computed in `J` consecutive
  blocks of `b` terms: an accumulator is cleared, and block `j` adds its partial sum `∑ k < b, g (j * b + k)` to
  it.  In any commutative additive monoid — the extended reals with their addition among them, where no
  finiteness is needed — the accumulator ends at the whole sum.  Three statements:

    * `sum_blocks`: the whole sum is the sum over the blocks of the blocks' partial sums;
    * `accum_eq_sum`: an accumulator that starts at `0 + blk 0` and adds `blk (n + 1)` at step `n + 1` holds
      `∑ j ≤ n, blk j` after step `n`;
    * `accum_blocks`: the two together, the accumulator after the last of `J` blocks is the whole sum.
-/
import Mathlib.Algebra.BigOperators.Fin
import Mathlib.Algebra.BigOperators.Intervals
import Mathlib.Logic.Equiv.Fin.Basic

namespace Cert.LibBlockedSum

variable {A : Type} [AddCommMonoid A]

/-- Position `k` of block `j` is a position of the whole range. -/
theorem pos_lt {J b : ℕ} (j : Fin J) (k : Fin b) : j.val * b + k.val < J * b :=
  calc j.val * b + k.val < j.val * b + b := Nat.add_lt_add_left k.isLt _
    _ = (j.val + 1) * b := (Nat.succ_mul _ _).symm
    _ ≤ J * b := Nat.mul_le_mul_right _ j.isLt

/-- A sum over `J * b` positions is the sum over the `J` blocks of each block's `b` terms. -/
theorem sum_blocks (J b : ℕ) (g : Fin (J * b) → A) :
    ∑ n : Fin (J * b), g n = ∑ j : Fin J, ∑ k : Fin b, g ⟨j.val * b + k.val, pos_lt j k⟩ := by
  rw [← Equiv.sum_comp finProdFinEquiv g, Fintype.sum_prod_type]
  refine Finset.sum_congr rfl fun j _ => Finset.sum_congr rfl fun k _ => congrArg g (Fin.ext ?_)
  show k.val + b * j.val = j.val * b + k.val
  rw [Nat.mul_comm, Nat.add_comm]

/-- A running total: started at `0 + blk 0`, with `blk (n + 1)` added at step `n + 1`, it holds the sum of the
    first `n + 1` blocks after step `n`. -/
theorem accum_eq_sum (blk acc : ℕ → A) (h0 : acc 0 = 0 + blk 0) (hs : ∀ n, acc (n + 1) = acc n + blk (n + 1)) (n : ℕ) :
    acc n = ∑ j ∈ Finset.range (n + 1), blk j := by
  induction n with
  | zero => rw [h0, zero_add, Finset.sum_range_one]
  | succ n ih => rw [hs n, ih, Finset.sum_range_succ _ (n + 1)]

/-- The same when only the first `J` steps are constrained (a grid of `J` points along the accumulation axis). -/
theorem accum_eq_sum_of_lt {J : ℕ} (blk acc : ℕ → A) (h0 : acc 0 = 0 + blk 0)
    (hs : ∀ n, n + 1 < J → acc (n + 1) = acc n + blk (n + 1)) (n : ℕ) (hn : n < J) :
    acc n = ∑ j ∈ Finset.range (n + 1), blk j := by
  induction n with
  | zero => rw [h0, zero_add, Finset.sum_range_one]
  | succ n ih => rw [hs n hn, ih (Nat.lt_of_succ_lt hn), Finset.sum_range_succ _ (n + 1)]

/-- An accumulator fed the `J` blocks' partial sums of `g`, one block per step, ends at the whole sum of `g`. -/
theorem accum_blocks (J b : ℕ) (g : Fin ((J + 1) * b) → A) (acc : ℕ → A)
    (h0 : acc 0 = 0 + ∑ k : Fin b, g ⟨(0 : Fin (J + 1)).val * b + k.val, pos_lt 0 k⟩)
    (hs : ∀ n (hn : n + 1 < J + 1), acc (n + 1) = acc n + ∑ k : Fin b, g ⟨(⟨n + 1, hn⟩ : Fin (J + 1)).val * b + k.val, pos_lt ⟨n + 1, hn⟩ k⟩) :
    acc J = ∑ n : Fin ((J + 1) * b), g n := by
  let blk : ℕ → A := fun j => if hj : j < J + 1 then ∑ k : Fin b, g ⟨(⟨j, hj⟩ : Fin (J + 1)).val * b + k.val, pos_lt ⟨j, hj⟩ k⟩ else 0
  have hb : ∀ (j : ℕ) (hj : j < J + 1), blk j = ∑ k : Fin b, g ⟨(⟨j, hj⟩ : Fin (J + 1)).val * b + k.val, pos_lt ⟨j, hj⟩ k⟩ :=
    fun j hj => dif_pos hj
  have h := accum_eq_sum_of_lt (J := J + 1) blk acc (by rw [h0, hb 0 (Nat.succ_pos J)]; rfl)
    (fun n hn => by rw [hs n hn, hb (n + 1) hn]) J (Nat.lt_succ_self J)
  rw [h, sum_blocks (J + 1) b g, ← Fin.sum_univ_eq_sum_range blk (J + 1)]
  exact Finset.sum_congr rfl fun j _ => hb j.val j.isLt

end Cert.LibBlockedSum
-- ==== Proof.Dequant.lean ====
/-
  The mathematics of a weight-only quantized linear layer, with no program in sight.

  The weight matrix is stored as integer codes `q[o, n]` with one scale per output row `o` and per GROUP of 128
  consecutive input features: the dequantized weight is `w[o, n] = q[o, n] * s[o, n / 128]`, and the layer maps a row
  `x[r, ·]` of activations to `y[r, o] = ∑ₙ x[r, n] * w[o, n]` — a matrix product against the transposed weight.

  A tiled evaluation cuts the 4096 input features into 8 tiles of 512 (each tile 4 groups of 128), keeps the scales
  as `S[k, o, g]` — tile `k`, output row `o`, group `g` within the tile —, and adds one tile's partial product per step
  to a running total.  Over the extended reals addition is associative and commutative, so the running total after
  the last tile is the whole sum: no finiteness is used.
-/
import Idealize.ShloMosaic.PureOps.Ideal
import Idealize.ShloMosaic.Lib.ValueIdx
import proofs.«129076_j3736621547692_1_alg».proof.Proof.LibBlockedSum

noncomputable section

namespace Cert.Dequant

open Idealize.ShloMosaic Idealize.ShloMosaic.ValueIdx

/-- The quantization group of input feature `n`: the groups are the runs of 128 consecutive features. -/
def grp (n : Fin 4096) : Fin 32 := ⟨n.val / 128, by have := n.isLt; omega⟩

/-- The tile of 512 input features that feature `n` lies in. -/
def tile (n : Fin 4096) : Fin 8 := ⟨n.val / 512, by have := n.isLt; omega⟩

/-- The group of feature `n` within its tile: a tile holds four groups. -/
def sub (n : Fin 4096) : Fin 4 := ⟨n.val % 512 / 128, by omega⟩

/-- The group within a tile of position `e` of the tile. -/
def lane (e : Fin 512) : Fin 4 := ⟨e.val / 128, by have := e.isLt; omega⟩

/-- Feature `e` of tile `k`. -/
def feat (k : Fin 8) (e : Fin 512) : Fin 4096 := ⟨k.val * 512 + e.val, by have := k.isLt; have := e.isLt; omega⟩

/-- THE LAYER: `y[r, o] = ∑ₙ x[r, n] * (q[o, n] * s[o, n / 128])`, the integer code read as the real number it is. -/
def G (x : FVec Ideal ⟨2, ![4096, 4096]⟩ .f32) (q : IVec ⟨2, ![11008, 4096]⟩ 32) (s : FVec Ideal ⟨2, ![11008, 32]⟩ .f32) :
    FVec Ideal ⟨2, ![4096, 11008]⟩ .f32 :=
  fun i => ∑ n : Fin 4096, x (ix2 (i 0) n) * (FloatOps.sitofp (F := Ideal) .f32 (q (ix2 (i 1) n)) * s (ix2 (i 1) (grp n)))

/-- The same layer over 11264 output rows with the scales stored tile-major, `S[k, o, g]`. -/
def Gtiled (X : FVec Ideal ⟨2, ![4096, 4096]⟩ .bf16) (Q : IVec ⟨2, ![11264, 4096]⟩ 32) (S : FVec Ideal ⟨3, ![8, 11264, 4]⟩ .f32) :
    FVec Ideal ⟨2, ![4096, 11264]⟩ .f32 :=
  fun i => ∑ n : Fin 4096, X (ix2 (i 0) n) * (FloatOps.sitofp (F := Ideal) .f32 (Q (ix2 (i 1) n)) * S (ix3 (tile n) (i 1) (sub n)))

/-- One tile's partial product for activation row `r` and output row `o`. -/
def tileSum (X : FVec Ideal ⟨2, ![4096, 4096]⟩ .bf16) (Q : IVec ⟨2, ![11264, 4096]⟩ 32) (S : FVec Ideal ⟨3, ![8, 11264, 4]⟩ .f32)
    (r : Fin 4096) (o : Fin 11264) (k : Fin 8) : EReal :=
  ∑ e : Fin 512, X (ix2 r (feat k e)) * (FloatOps.sitofp (F := Ideal) .f32 (Q (ix2 o (feat k e))) * S (ix3 k o (lane e)))

/-- The eight tiles' partial products add up to the whole contraction. -/
theorem sum_tileSum (X : FVec Ideal ⟨2, ![4096, 4096]⟩ .bf16) (Q : IVec ⟨2, ![11264, 4096]⟩ 32) (S : FVec Ideal ⟨3, ![8, 11264, 4]⟩ .f32)
    (r : Fin 4096) (o : Fin 11264) :
    ∑ k : Fin 8, tileSum X Q S r o k = Gtiled X Q S (ix2 r o) := by
  unfold Gtiled tileSum
  refine Eq.trans ?_ (Cert.LibBlockedSum.sum_blocks 8 512 (fun n : Fin (8 * 512) =>
    X (ix2 r n) * (FloatOps.sitofp (F := Ideal) .f32 (Q (ix2 o n)) * S (ix3 (tile n) o (sub n))))).symm
  refine Finset.sum_congr rfl fun k _ => Finset.sum_congr rfl fun e _ => ?_
  have hk := k.isLt
  have he := e.isLt
  have ht : tile ⟨k.val * 512 + e.val, Cert.LibBlockedSum.pos_lt k e⟩ = k :=
    Fin.ext (by show (k.val * 512 + e.val) / 512 = k.val; omega)
  have hs : sub ⟨k.val * 512 + e.val, Cert.LibBlockedSum.pos_lt k e⟩ = lane e :=
    Fin.ext (by show (k.val * 512 + e.val) % 512 / 128 = e.val / 128; omega)
  show _ = X (ix2 r ⟨k.val * 512 + e.val, _⟩) * (FloatOps.sitofp (F := Ideal) .f32 (Q (ix2 o ⟨k.val * 512 + e.val, _⟩))
    * S (ix3 (tile ⟨k.val * 512 + e.val, Cert.LibBlockedSum.pos_lt k e⟩) o (sub ⟨k.val * 512 + e.val, Cert.LibBlockedSum.pos_lt k e⟩)))
  rw [ht, hs]
  rfl

end Cert.Dequant

end
-- ==== Proof.Blocks.lean ====
/-
  Where the blocks of the three inputs sit in their arrays.

  The grid point `t = (i * 11 + j) * 8 + k` works on activation block `(i, k)`, code block `(j, k)` and scale block
  `(k, j, 0)`; a block's entry is the array's entry at block index times block size plus the position in the block.
-/
import proofs.«129076_j3736621547692_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- Window 0 (activations) over the grid `t = (i * 11 + j) * 8 + k`: its block index is `(i, k) = (t / 88, t % 8)`. -/
theorem idx0 : ∀ t : Fin cfg0.N, win0_0.index t 0 = t.val / 88 ∧ win0_0.index t 1 = t.val % 8 :=
  (by decide +kernel : ∀ t : Fin grid0.N, _)

/-- Window 1 (codes): its block index is `(j, k) = (t / 8 % 11, t % 8)`. -/
theorem idx1 : ∀ t : Fin cfg0.N, win0_1.index t 0 = t.val / 8 % 11 ∧ win0_1.index t 1 = t.val % 8 :=
  (by decide +kernel : ∀ t : Fin grid0.N, _)

/-- Window 2 (scales): its block index is `(k, j, 0) = (t % 8, t / 8 % 11, 0)`. -/
theorem idx2 : ∀ t : Fin cfg0.N, win0_2.index t 0 = t.val % 8 ∧ win0_2.index t 1 = t.val / 8 % 11 ∧ win0_2.index t 2 = 0 :=
  (by decide +kernel : ∀ t : Fin grid0.N, _)

/-- The activation block at point `t`: rows `2048 * (t / 88) + p`, features `512 * (t % 8) + e`. -/
theorem xblk_apply (c : Dev nD) (t : Fin cfg0.N) (p : Fin 2048) (e : Fin 512)
    (hr : t.val / 88 * 2048 + p.val < 4096) (hn : t.val % 8 * 512 + e.val < 4096) :
    (iblk m c 0 t : Vec F S2048x512 .bf16) (ix2 p e)
      = V m c main_v2 (ix2 (⟨t.val / 88 * 2048 + p.val, hr⟩ : Fin 4096) (⟨t.val % 8 * 512 + e.val, hn⟩ : Fin 4096)) := by
  obtain ⟨h0, h1⟩ := idx0 t
  unfold iblk
  rw [View.read_apply]
  show V m c main_v2 (((cfg0.win 0).blk t).view.emb (ix2 p e)) = V m c main_v2 _
  congr 1
  funext a
  apply Fin.ext
  match a with
  | ⟨0, _⟩ => show win0_0.index t 0 * 2048 + 1 * p.val = t.val / 88 * 2048 + p.val; rw [h0]; omega
  | ⟨1, _⟩ => show win0_0.index t 1 * 512 + 1 * e.val = t.val % 8 * 512 + e.val; rw [h1]; omega

/-- The code block at point `t`: output rows `1024 * (t / 8 % 11) + o`, features `512 * (t % 8) + e`. -/
theorem qblk_apply (c : Dev nD) (t : Fin cfg0.N) (o : Fin 1024) (e : Fin 512)
    (ho : t.val / 8 % 11 * 1024 + o.val < 11264) (hn : t.val % 8 * 512 + e.val < 4096) :
    (iblk m c 1 t : Vec F S1024x512 .i32) (ix2 o e)
      = V m c main_v0 (ix2 (⟨t.val / 8 % 11 * 1024 + o.val, ho⟩ : Fin 11264) (⟨t.val % 8 * 512 + e.val, hn⟩ : Fin 4096)) := by
  obtain ⟨h0, h1⟩ := idx1 t
  unfold iblk
  rw [View.read_apply]
  show V m c main_v0 (((cfg0.win 1).blk t).view.emb (ix2 o e)) = V m c main_v0 _
  congr 1
  funext a
  apply Fin.ext
  match a with
  | ⟨0, _⟩ => show win0_1.index t 0 * 1024 + 1 * o.val = t.val / 8 % 11 * 1024 + o.val; rw [h0]; omega
  | ⟨1, _⟩ => show win0_1.index t 1 * 512 + 1 * e.val = t.val % 8 * 512 + e.val; rw [h1]; omega

/-- The scale block at point `t`: tile `t % 8`, output rows `1024 * (t / 8 % 11) + o`, all four groups. -/
theorem sblk_apply (c : Dev nD) (t : Fin cfg0.N) (z : Fin 1) (o : Fin 1024) (g : Fin 4)
    (hk : t.val % 8 < 8) (ho : t.val / 8 % 11 * 1024 + o.val < 11264) :
    (iblk m c 2 t : Vec F S1x1024x4 .f32) (ix3 z o g)
      = V m c main_v4 (ix3 (⟨t.val % 8, hk⟩ : Fin 8) (⟨t.val / 8 % 11 * 1024 + o.val, ho⟩ : Fin 11264) g) := by
  obtain ⟨h0, h1, h2⟩ := idx2 t
  unfold iblk
  rw [View.read_apply]
  show V m c main_v4 (((cfg0.win 2).blk t).view.emb (ix3 z o g)) = V m c main_v4 _
  congr 1
  funext a
  apply Fin.ext
  match a with
  | ⟨0, _⟩ => show win0_2.index t 0 * 1 + 1 * z.val = t.val % 8; rw [h0]; omega
  | ⟨1, _⟩ => show win0_2.index t 1 * 1024 + 1 * o.val = t.val / 8 % 11 * 1024 + o.val; rw [h1]; omega
  | ⟨2, _⟩ => show win0_2.index t 2 * 4 + 1 * g.val = g.val; rw [h2]; omega

end Cert.KernelIdeal.Blocks

end
-- ==== Proof.RegionEntry.lean ====
import proofs.«129076_j3736621547692_1_alg».proof.Proof.Gen.KernelIdeal.Frame
import Idealize.ShloMosaic.Lib.Pipeline.Value
import Idealize.ShloMosaic.Lib.ValueIdx
import Idealize.ShloMosaic.Lib.KernelVsHost
import Idealize.ShloMosaic.PureOps.Ideal.Laws

/-!
  What three of the arrays hold when the region is entered, in terms of the program's arguments.

  Before the region the program pads the codes and the scales with 256 further rows, changes the float format of the
  activations, and re-lays the padded scales: the 32 groups of a row are cut into 8 tiles of 4 groups and the tile
  becomes the leading axis. Each statement below reads one of these arrays at an index that lies over a row of the
  argument, where the padding value plays no part.
-/

noncomputable section

namespace Cert.KernelIdeal.RegionEntry

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- A matrix padded below with further rows, read at a row of the operand, is the operand there: on the row axis the
    index is the operand's row (no low padding, no interior step), on the column axis the column itself. -/
theorem pad_rows_apply {α : Type} {R R' C : Nat} {u : Shape} (x : (⟨2, ![R, C]⟩ : Shape).Idx → α) (v : u.Idx → α)
    (h : (⟨2, ![R, C]⟩ : Shape).Pads (![0, 0] : Fin 2 → Nat) ![R' - R, 0] ![0, 0] ⟨2, ![R', C]⟩) (hu : 0 < u.numel)
    (o : Fin R) (n : Fin C) (ho : o.val < R') :
    pad (⟨2, ![R', C]⟩ : Shape) ![0, 0] ![R' - R, 0] ![0, 0] x v h hu (ix2 (⟨o.val, ho⟩ : Fin R') n) = x (ix2 o n) :=
  pad_apply_of_inside _ _ _ x v h hu _ (ix2 o n) (fun a => by
    match a with
    | ⟨0, _⟩ => show o.val = 0 + o.val * (0 + 1); omega
    | ⟨1, _⟩ => show n.val = 0 + n.val * (0 + 1); omega)

/-- A matrix of 32 columns cut into 8 tiles of 4 columns and stored tile-major: the entry at tile `k`, row `r` and
    lane `g` is the matrix's entry at row `r` and column `4 * k + g`. The exchange of the two leading axes sends
    `(k, r, g)` to `(r, k, g)`, and `(r, k, g)` has the row-major position `(8 r + k) * 4 + g = 32 r + (4 k + g)` of
    `(r, 4 k + g)`. -/
theorem tiles_apply {α : Type} (x : S11264x32.Idx → α) (hc : S11264x32.ShapeCasts S11264x8x4)
    (ht : S11264x8x4.Transposes [1, 0, 2] S8x11264x4) (k : Fin 8) (r : Fin 11264) (g : Fin 4) (hg : k.val * 4 + g.val < 32) :
    transpose S8x11264x4 [1, 0, 2] (shapeCast S11264x8x4 x hc) ht (ix3 k r g) = x (ix2 r (⟨k.val * 4 + g.val, hg⟩ : Fin 32)) := by
  refine (transpose_apply _ _ ht (ix3 k r g) (ix3 r k g) (fun b => by
    match b with
    | ⟨0, _⟩ => rfl
    | ⟨1, _⟩ => rfl
    | ⟨2, _⟩ => rfl)).trans ?_
  refine shapeCast_apply x hc (ix3 r k g) (ix2 r (⟨k.val * 4 + g.val, hg⟩ : Fin 32)) ?_
  rw [Shape.rowMajor_val_two, Shape.rowMajor_val_three]
  show r.val * 32 + (k.val * 4 + g.val) = (r.val * 8 + k.val) * 4 + g.val
  omega

/-- The activations the region finds are the argument's: the change of float format is the identity on the
    extended reals. -/
theorem x_entry (c : Dev nD) :
    (V m c main_v2 : S4096x4096.Idx → EReal) = m ((c : Thread nD τ).loc main_arg0) := by
  -- the array is the narrowing of the argument, which no earlier operation writes
  have e : (V m c main_v2 : S4096x4096.Idx → EReal)
      = ((truncf (F := Ideal) .bf16 · bitsLt_bf16_f32) : (⟨S4096x4096, .f32⟩ : BufTy).Contents (Elt Ideal) → (⟨S4096x4096, .bf16⟩ : BufTy).Contents (Elt Ideal))
          (m ((c : Thread nD τ).loc main_arg0)) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
  -- and narrowing an extended real leaves it as it is
  rw [e]; rfl

/-- The codes the region finds, on an output row of the argument (below the padding), are the argument's. -/
theorem q_entry (c : Dev nD) (o : Fin 11008) (n : Fin 4096) (ho : o.val < 11264) :
    V m c main_v0 (ix2 (⟨o.val, ho⟩ : Fin 11264) n) = m ((c : Thread nD τ).loc main_arg1) (ix2 o n) := by
  -- the array is the argument with 256 rows of a constant appended
  have e : (V m c main_v0 : S11264x4096.Idx → BitVec 32)
      = pad S11264x4096 ![0, 0] ![256, 0] ![0, 0] (m ((c : Thread nD τ).loc main_arg1)) (constantI S_ 32 0#32)
          pads_S11008x4096_S11264x4096_02560_000 h_S_ := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  refine (congrFun e _).trans ?_
  exact pad_rows_apply (R := 11008) (R' := 11264) (C := 4096) _ _ pads_S11008x4096_S11264x4096_02560_000 h_S_ o n ho

/-- The scales the region finds are stored tile-major: at tile `k`, an output row `o` of the argument and group `g`
    of the tile, the argument's scale of row `o` and group `4 * k + g`. -/
theorem s_entry (c : Dev nD) (k : Fin 8) (o : Fin 11008) (g : Fin 4) (ho : o.val < 11264) (hg : k.val * 4 + g.val < 32) :
    V m c main_v4 (ix3 k (⟨o.val, ho⟩ : Fin 11264) g) = m ((c : Thread nD τ).loc main_arg2) (ix2 o (⟨k.val * 4 + g.val, hg⟩ : Fin 32)) := by
  -- the array is the argument with 256 rows of a constant appended, its 32 groups cut into 8 tiles of 4, tile-major
  have e : (V m c main_v4 : S8x11264x4.Idx → EReal)
      = transpose S8x11264x4 [1, 0, 2]
          (shapeCast S11264x8x4
            (pad S11264x32 ![0, 0] ![256, 0] ![0, 0] (m ((c : Thread nD τ).loc main_arg2))
              (sitofp (F := Ideal) .f32 (constantI S_ 32 0#32)) pads_S11008x32_S11264x32_02560_000 h_S_)
            shapeCasts_S11264x32_S11264x8x4)
          transposes_S11264x8x4_S8x11264x4_1_0_2 := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  refine (congrFun e _).trans ?_
  refine (tiles_apply _ shapeCasts_S11264x32_S11264x8x4 transposes_S11264x8x4_S8x11264x4_1_0_2 k ⟨o.val, ho⟩ g hg).trans ?_
  exact pad_rows_apply (R := 11008) (R' := 11264) (C := 32) _ _ pads_S11008x32_S11264x32_02560_000 h_S_ o _ ho

end Cert.KernelIdeal.RegionEntry

end
-- ==== Proof.LibMatmulNT.lean ====
/-
  A matrix product against a transposed right factor, read at an index at the exact extended reals: a general lemma.

  With dimension numbers that contract axis 1 of an `[M, K]` left factor with axis 1 of an `[N, K]` right factor (no
  batch axes; the result `[M, N]`), and a zero accumulator, entry `(p, q)` of the product is the sum over `e` of
  `lhs (p, e) * rhs (q, e)`: row `p` of the left factor against row `q` of the right one.
-/
import Idealize.ShloMosaic.PureOps.Ideal
import Idealize.ShloMosaic.PureOps.Ideal.Laws
import Idealize.ShloMosaic.Lib.ValueIdx

noncomputable section

namespace Cert.LibMatmulNT

open Idealize.ShloMosaic Idealize.ShloMosaic.ValueIdx

variable {M N K : ℕ}

/-- The dimension numbers "rows against rows": contract axis 1 with axis 1, keep axis 0 of each factor, no batch. -/
abbrev dims (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) where
  lhsContracting := [1]
  rhsContracting := [1]
  lhsNonContracting := [0]
  rhsNonContracting := [0]
  lhsBatch := []
  rhsBatch := []
  wf := wf

variable (wf : DotDims.WF (⟨2, ![M, K]⟩ : Shape) (⟨2, ![N, K]⟩ : Shape) (⟨2, ![M, N]⟩ : Shape) [1] [1] [0] [0] [] [])

/-- The left index keeps the result's row coordinate on its own row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index puts the result's column coordinate on its own row axis. -/
theorem rhsIdx_row (j : (⟨2, ![M, N]⟩ : Shape).Idx) (k : (dims wf).contr.Idx) :
    ((dims wf).rhsIdx j k 0).val = (j 1).val := by
  unfold DotDims.rhsIdx
  rw [dif_neg (show ¬(0 : Fin (⟨2, ![N, K]⟩ : Shape).rank) ∈ (dims wf).rhsBatch from List.not_mem_nil),
    dif_pos (show (0 : Fin (⟨2, ![N, K]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(q, e)`. -/
theorem rhsIdx_eq (p : Fin M) (q : Fin N) (e : Fin K) :
    (dims wf).rhsIdx (ix2 p q) ((contrEquiv1 (dims wf) K rfl rfl).symm e) = ix2 q e := by
  have he := contrEquiv1_symm_val (dims wf) K rfl rfl e
  funext a
  apply Fin.ext
  match a with
  | ⟨0, _⟩ => exact rhsIdx_row wf _ _
  | ⟨1, _⟩ => exact ((dims wf).rhsIdx_val_of_single rfl _ _).trans he

/-- Entry `(p, q)` of the product into a zero accumulator: row `p` of `lhs` against row `q` of `rhs`. -/
theorem matmul_zero_apply {φ₁ φ₂ : FTy} (prec : Option ContractPrecision)
    (lhs : FVec Ideal (⟨2, ![M, K]⟩ : Shape) φ₁) (rhs : FVec Ideal (⟨2, ![N, K]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 q e) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNT

end
-- ==== Proof.LibLaneGroups.lean ====
/-
  Lanes split into groups: a general layout lemma, the lane-side companion of the row-block cast. An `[a, n]` array
  viewed as `[a, b, c]` with `n = b * c` keeps the row-major order, so entry `(p, q, k)` of the view is entry
  `(p, q * c + k)` of the array: group `q` of a row is its `c` consecutive lanes from `q * c` on.
-/
import Idealize.ShloMosaic.Lib.Pipeline.Value
import Idealize.ShloMosaic.Lib.ValueIdx

namespace Cert.Layout

open Idealize.ShloMosaic Idealize.ShloMosaic.ValueIdx

/-- An `[a, n]` array viewed `[a, b, c]` (so `n = b * c`) reads, at `(p, q, k)`, the operand's entry `(p, q * c + k)`. -/
theorem shapeCast_lanes_groups_apply {α : Type} {a n b c : ℕ} (x : (⟨2, ![a, n]⟩ : Shape).Idx → α)
    (h : (⟨2, ![a, n]⟩ : Shape).ShapeCasts ⟨3, ![a, b, c]⟩) (hn : n = b * c) (p : Fin a) (q : Fin b) (k : Fin c)
    (hqk : q.val * c + k.val < n) :
    shapeCast ⟨3, ![a, b, c]⟩ x h (ix3 p q k) = x (ix2 p ⟨q.val * c + k.val, hqk⟩) := by
  refine shapeCast_apply x h _ _ ?_
  rw [Shape.rowMajor_val_two, Shape.rowMajor_val_three]
  show p.val * n + (q.val * c + k.val) = (p.val * b + q.val) * c + k.val
  rw [hn]; ring

end Cert.Layout
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.BodyValue.lean ====
/-
  One step of the tiled layer, entry by entry.

  A step takes a block of 2048 activation rows over the tile's 512 features, a block of 1024 rows of integer codes
  over the same features, the 1024 x 4 scales of the tile's four groups, and the running total.  It turns each code
  into the real number it is, multiplies it by the scale of its group (feature `e` of the tile lies in group
  `e / 128`), and adds to the running total the product of the activations against these weights, rows against
  rows.  Read at entry `(p, o)` that is the running total there plus `∑ₑ x(p, e) * (q(o, e) * s(o, e / 128))`.
-/
import proofs.«129076_j3736621547692_1_alg».proof.Proof.Gen.KernelIdeal.Skeleton
import proofs.«129076_j3736621547692_1_alg».proof.Proof.Dequant
import proofs.«129076_j3736621547692_1_alg».proof.Proof.LibMatmulNT
import proofs.«129076_j3736621547692_1_alg».proof.Proof.LibLaneGroups
import proofs.«129076_j3736621547692_1_alg».proof.Proof.LibRank3Layout
import Idealize.ShloMosaic.Lib.Pipeline.Value
import Idealize.ShloMosaic.Lib.ValueIdx
import Idealize.ShloMosaic.PureOps.Ideal.Laws

noncomputable section

namespace Cert.KernelIdeal.BodyValue

open Idealize.ShloMosaic Idealize.ShloMosaic.TcCoe Idealize.ShloMosaic.ValueIdx Idealize.SL.Sem
open Cert.KernelIdeal Cert.KernelIdeal.Gen Cert.Dequant

/-- The block the first tile's step clears the running total to: zero everywhere. -/
theorem zero_apply (j : S2048x1024.Idx) : k0_pay1 (F := Ideal) j = 0 :=
  Ideal.ofBits_zero_f32

/-- The scales of the tile, spread over the lanes of their group: entry `(o, g, k)` of the spread array is the scale
    of output row `o` and group `g`, whatever the lane `k`. The leading unit axis is dropped (row-major order is
    kept), a trailing unit axis is appended, and that axis is repeated 128 times. -/
theorem scale_apply (v7 : FVec Ideal S1x1024x4 .f32) (o : Fin 1024) (g : Fin 4) (k : Fin 128) :
    broadcastTo S1024x4x128
        (shapeCast S1024x4x1 (shapeCast S1024x4x1 (shapeCast S1024x4 v7 shapeCasts_S1x1024x4_S1024x4)
          shapeCasts_S1024x4_S1024x4x1) shapeCasts_S1024x4x1_S1024x4x1)
        broadcasts_S1024x4x1_S1024x4x128 (ix3 o g k)
      = v7 (ix3 (0 : Fin 1) o g) := by
  refine (Cert.LibRank3.broadcastTo_lane_apply _ broadcasts_S1024x4x1_S1024x4x128 o g k).trans ?_
  rw [shapeCast_self]
  refine (Cert.LibRank3.shapeCast_keepdim_apply _ shapeCasts_S1024x4_S1024x4x1 o g _).trans ?_
  refine shapeCast_apply v7 shapeCasts_S1x1024x4_S1024x4 _ _ ?_
  rw [Shape.rowMajor_val_two, Shape.rowMajor_val_three]
  show ((0 : ℕ) * 1024 + o.val) * 4 + g.val = o.val * 4 + g.val
  omega

/-- The integer codes read as reals and cut into groups of 128 lanes: entry `(o, g, k)` is the code at position
    `e = g * 128 + k` of row `o`. -/
theorem code_apply (v3 : IVec S1024x512 32) (o : Fin 1024) (g : Fin 4) (k : Fin 128) (e : Fin 512)
    (h : g.val * 128 + k.val = e.val) :
    shapeCast S1024x4x128 (sitofp (F := Ideal) .f32 (shapeCast S1024x512 v3 shapeCasts_S1024x512_S1024x512))
        shapeCasts_S1024x512_S1024x4x128 (ix3 o g k)
      = FloatOps.sitofp (F := Ideal) .f32 (v3 (ix2 o e)) := by
  refine (Cert.Layout.shapeCast_lanes_groups_apply _ shapeCasts_S1024x512_S1024x4x128 rfl o g k (h ▸ e.isLt)).trans ?_
  rw [shapeCast_self]
  exact congrArg (fun n : Fin 512 => FloatOps.sitofp (F := Ideal) .f32 (v3 (ix2 o n))) (Fin.ext h)

/-- The dequantized weights of the tile, as the body computes them: each code times the scale of its group, the
    product taken group by group and the groups laid side by side again. -/
def wtile (v3 : IVec S1024x512 32) (v7 : FVec Ideal S1x1024x4 .f32) : FVec Ideal S1024x512 .f32 :=
  shapeCast S1024x512
    (mulf
      (shapeCast S1024x4x128 (sitofp (F := Ideal) .f32 (shapeCast S1024x512 v3 shapeCasts_S1024x512_S1024x512))
        shapeCasts_S1024x512_S1024x4x128)
      (broadcastTo S1024x4x128
        (shapeCast S1024x4x1 (shapeCast S1024x4x1 (shapeCast S1024x4 v7 shapeCasts_S1x1024x4_S1024x4)
          shapeCasts_S1024x4_S1024x4x1) shapeCasts_S1024x4x1_S1024x4x1)
        broadcasts_S1024x4x1_S1024x4x128))
    shapeCasts_S1024x4x128_S1024x512

/-- Entry `(o, e)` of the dequantized tile: position `e` of a row lies in group `e / 128` at lane `e % 128`, so it
    is the code at `(o, e)` times the scale of row `o` and group `e / 128`. -/
theorem wtile_apply (v3 : IVec S1024x512 32) (v7 : FVec Ideal S1x1024x4 .f32) (o : Fin 1024) (e : Fin 512) :
    wtile v3 v7 (ix2 o e) = FloatOps.sitofp (F := Ideal) .f32 (v3 (ix2 o e)) * v7 (ix3 (0 : Fin 1) o (lane e)) := by
  have he := e.isLt
  unfold wtile
  refine (shapeCast_apply _ shapeCasts_S1024x4x128_S1024x512 (ix2 o e)
    (ix3 o (lane e) (⟨e.val % 128, Nat.mod_lt _ (by norm_num)⟩ : Fin 128)) ?_).trans ?_
  · rw [Shape.rowMajor_val_two, Shape.rowMajor_val_three]
    show (o.val * 4 + e.val / 128) * 128 + e.val % 128 = o.val * 512 + e.val
    omega
  · rw [mulf_apply, scale_apply,
      code_apply v3 o (lane e) _ e (by show e.val / 128 * 128 + e.val % 128 = e.val; omega)]

/-- The body's second payload is the running total plus the product of the activations against the dequantized tile,
    rows against rows, into a zero accumulator (the narrowing of the tile is a change of format only). -/
theorem pay2_eq (v3 : Vec Ideal S1024x512 .i32) (v7 : Vec Ideal S1x1024x4 .f32) (v15 : Vec Ideal S2048x512 .bf16)
    (v18 : Vec Ideal S2048x1024 .f32) :
    k0_pay2 (F := Ideal) v3 v7 v15 v18
      = addf (shapeCast S2048x1024 v18 shapeCasts_S2048x1024_S2048x1024)
          (matmul (φ₁ := .bf16) dot_S2048x512_S1024x512_S2048x1024_1_1_0_0_n_n none
            (shapeCast S2048x512 (v15 : FVec Ideal S2048x512 .bf16) shapeCasts_S2048x512_S2048x512)
            (truncf .bf16 (wtile v3 v7) bitsLt_bf16_f32)
            (constant (F := Ideal) S2048x1024 .f32 0x00000000#32)) := rfl

/-- One step of the body at entry `(p, o)`: the running total plus the tile's partial product of activation row `p`
    against dequantized weight row `o`. -/
theorem step_apply (v3 : Vec Ideal S1024x512 .i32) (v7 : Vec Ideal S1x1024x4 .f32) (v15 : Vec Ideal S2048x512 .bf16)
    (v18 : Vec Ideal S2048x1024 .f32) (p : Fin 2048) (o : Fin 1024) :
    k0_pay2 (F := Ideal) v3 v7 v15 v18 (ix2 p o)
      = v18 (ix2 p o) + ∑ e : Fin 512, v15 (ix2 p e) * (FloatOps.sitofp (F := Ideal) .f32 (v3 (ix2 o e)) * v7 (ix3 (0 : Fin 1) o (lane e))) := by
  rw [pay2_eq, addf_apply, shapeCast_self, shapeCast_self]
  refine congrArg (v18 (ix2 p o) + ·) ?_
  refine (Cert.LibMatmulNT.matmul_zero_apply (φ₁ := .bf16) dot_S2048x512_S1024x512_S2048x1024_1_1_0_0_n_n_wf none v15
    (truncf .bf16 (wtile v3 v7) bitsLt_bf16_f32) p o).trans ?_
  refine Finset.sum_congr rfl fun e _ => ?_
  rw [truncf_apply, wtile_apply]

end Cert.KernelIdeal.BodyValue

end
-- ==== Proof.CaseValues.lean ====
/-
  What the body leaves in the output block, in each of its two cases.

  At the first tile of an output block the body first clears the block, then reads it back as the running total; at a
  later tile the running total is what the block already holds.  In both cases the block ends holding one step's
  value over that running total, each load reading a whole buffer.
-/
import proofs.«129076_j3736621547692_1_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal.Laws

noncomputable section

namespace Cert.KernelIdeal.CaseValues

open Idealize.ShloMosaic Idealize.ShloMosaic.TcCoe Idealize.ShloMosaic.ValueIdx Idealize.SL.Sem
open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- At the first tile the body clears the running total, reads the cleared block back, and leaves the step's value
    over it. -/
theorem out_A (c : Dev nD) (i : grid0.Coords) (arg3 : Memref sig .tc .vmem S2048x512 .bf16) (harg3 : arg3.IsWhole) (arg4 : Memref sig .tc .vmem S1024x512 .i32) (harg4 : arg4.IsWhole) (arg5 : Memref sig .tc .vmem S1x1024x4 .f32) (harg5 : arg5.IsWhole) (arg6 : Memref sig .tc .vmem S2048x1024 .f32) (harg6 : arg6.IsWhole) (hc0 : cond0_0 i)
    (x0 : Vec F S2048x512 .bf16) (x1 : Vec F S1024x512 .i32) (x2 : Vec F S1x1024x4 .f32) :
    out0_A_3 c i arg3 harg3 arg4 harg4 arg5 harg5 arg6 harg6 hc0 x0 x1 x2 = k0_pay2 x1 x2 x0 (k0_pay1 (F := F)) := by
  unfold out0_A_3
  rw [View.read_writes_eq_canon _ _ _ (cover0_A_3 c i arg3 harg3 arg4 harg4 arg5 harg5 arg6 harg6 hc0 x0 x1 x2)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread,
    View.ld_unit_zero (S := S1024x512) hz, View.ld_unit_zero (S := S2048x512) hz, View.ld_unit_zero (S := S1x1024x4) hz3]

/-- At a later tile the body leaves the step's value over what the running total held. -/
theorem out_B (c : Dev nD) (i : grid0.Coords) (arg3 : Memref sig .tc .vmem S2048x512 .bf16) (harg3 : arg3.IsWhole) (arg4 : Memref sig .tc .vmem S1024x512 .i32) (harg4 : arg4.IsWhole) (arg5 : Memref sig .tc .vmem S1x1024x4 .f32) (harg5 : arg5.IsWhole) (arg6 : Memref sig .tc .vmem S2048x1024 .f32) (harg6 : arg6.IsWhole) (hc0 : ¬cond0_0 i)
    (x0 : Vec F S2048x512 .bf16) (x1 : Vec F S1024x512 .i32) (x2 : Vec F S1x1024x4 .f32) (xo3 : Vec F S2048x1024 .f32) :
    out0_B_3 c i arg3 harg3 arg4 harg4 arg5 harg5 arg6 harg6 hc0 x0 x1 x2 xo3 = k0_pay2 x1 x2 x0 xo3 := by
  unfold out0_B_3
  rw [View.read_writes_eq_canon _ _ _ (cover0_B_3 c i arg3 harg3 arg4 harg4 arg5 harg5 arg6 harg6 hc0 x0 x1 x2 xo3)]
  unfold kernelRun0_B
  dsimp only
  rw [View.canon_unit_zero hz]
  simp only [View.readAt_eq_ld, harg3.read_unread, harg4.read_unread, harg5.read_unread, harg6.read_unread,
    View.ld_unit_zero (S := S1024x512) hz, View.ld_unit_zero (S := S2048x512) hz, View.ld_unit_zero (S := S2048x1024) hz,
    View.ld_unit_zero (S := S1x1024x4) hz3]

end Cert.KernelIdeal.CaseValues

end
-- ==== Proof.RunningSum.lean ====
/-
  The running total along the grid.

  The eight consecutive grid points `8 u, …, 8 u + 7` work on one output block, one tile of the contraction each.
  The first clears the running total and adds its tile's partial product, each later one adds its own; so after
  point `n` the block holds the sum of the partial products of the points `8 (n / 8), …, n`.  By induction on the
  point.
-/
import proofs.«129076_j3736621547692_1_alg».proof.Proof.Gen.KernelIdeal.Frame
import proofs.«129076_j3736621547692_1_alg».proof.Proof.Dequant
import proofs.«129076_j3736621547692_1_alg».proof.Proof.BodyValue
import proofs.«129076_j3736621547692_1_alg».proof.Proof.CaseValues
import Idealize.ShloMosaic.Lib.Pipeline.Value
import Idealize.ShloMosaic.Lib.ValueIdx
import Idealize.ShloMosaic.PureOps.Ideal.Laws

noncomputable section

namespace Cert.KernelIdeal.RunningSum

open Idealize.ShloMosaic Idealize.ShloMosaic.TcCoe Idealize.ShloMosaic.ValueIdx Idealize.SL.Sem
open Cert.KernelIdeal Cert.KernelIdeal.Gen Cert.Dequant

variable (m : (ℓ : Loc nD τ sig) → Buf (Elt Ideal) ℓ)

/-- The partial product of an activation block, a code block and a scale block at entry `(p, o)`: the sum over the
    tile's 512 features of activation times dequantized weight. -/
def tileDot (xb : Vec Ideal S2048x512 .bf16) (qb : Vec Ideal S1024x512 .i32) (sb : Vec Ideal S1x1024x4 .f32)
    (p : Fin 2048) (o : Fin 1024) : EReal :=
  ∑ e : Fin 512, xb (ix2 p e) * (FloatOps.sitofp (F := Ideal) .f32 (qb (ix2 o e)) * sb (ix3 (0 : Fin 1) o (lane e)))

/-- The partial product of the three blocks staged at grid point `n` (zero past the grid). -/
def blockSum (c : Dev nD) (n : ℕ) (p : Fin 2048) (o : Fin 1024) : EReal :=
  if h : n < cfg0.N then tileDot (iblk m c 0 ⟨n, h⟩) (iblk m c 1 ⟨n, h⟩) (iblk m c 2 ⟨n, h⟩) p o else 0

/-- At the first tile of an output block the running total is cleared and the tile's partial product added. -/
theorem at_first (c : Dev nD) (t : Fin cfg0.N) (h0 : t.val % 8 = 0) (p : Fin 2048) (o : Fin 1024) :
    outsAt0 m c t.val t.isLt (ix2 p o) = 0 + blockSum m c t.val p o := by
  rw [outsAt0_A m c t h0]
  refine (congrFun (CaseValues.out_A (F := Ideal) c (grid0.coords t) (ms0_0 t) (hs0_0 t) (ms0_1 t) (hs0_1 t) (ms0_2 t) (hs0_2 t)
    (ms0_3 t) (hs0_3 t) ((hcond0_0 t).mpr h0) (iblk m c 0 t) (iblk m c 1 t) (iblk m c 2 t)) (ix2 p o)).trans ?_
  refine (BodyValue.step_apply (iblk m c 1 t) (iblk m c 2 t) (iblk m c 0 t) (k0_pay1 (F := Ideal)) p o).trans ?_
  rw [BodyValue.zero_apply]
  unfold blockSum
  rw [dif_pos t.isLt]
  rfl

/-- At a later tile the tile's partial product is added to what the point before left. -/
theorem at_later (c : Dev nD) (t : Fin cfg0.N) (h0 : ¬t.val % 8 = 0) (p : Fin 2048) (o : Fin 1024) :
    outsAt0 m c t.val t.isLt (ix2 p o)
      = outsAt0 m c (t.val - 1) (Nat.lt_of_le_of_lt (Nat.sub_le _ _) t.isLt) (ix2 p o) + blockSum m c t.val p o := by
  rw [outsAt0_B m c t h0]
  refine (congrFun (CaseValues.out_B (F := Ideal) c (grid0.coords t) (ms0_0 t) (hs0_0 t) (ms0_1 t) (hs0_1 t) (ms0_2 t) (hs0_2 t)
    (ms0_3 t) (hs0_3 t) (fun h => h0 ((hcond0_0 t).mp h)) (iblk m c 0 t) (iblk m c 1 t) (iblk m c 2 t)
    (outsAt0 m c (t.val - 1) (Nat.lt_of_le_of_lt (Nat.sub_le _ _) t.isLt))) (ix2 p o)).trans ?_
  refine (BodyValue.step_apply (iblk m c 1 t) (iblk m c 2 t) (iblk m c 0 t)
    (outsAt0 m c (t.val - 1) (Nat.lt_of_le_of_lt (Nat.sub_le _ _) t.isLt)) p o).trans ?_
  unfold blockSum
  rw [dif_pos t.isLt]
  rfl

/-- THE RUNNING TOTAL. After grid point `n` — tile `n % 8` of the output block that the points `8 * (n / 8) …` work on —
    the output's staging buffer holds the sum of the partial products of the tiles so far. -/
theorem outsAt_eq (c : Dev nD) : ∀ (n : ℕ) (h : n < cfg0.N) (p : Fin 2048) (o : Fin 1024),
    outsAt0 m c n h (ix2 p o) = ∑ k ∈ Finset.range (n % 8 + 1), blockSum m c (8 * (n / 8) + k) p o
  | 0, h, p, o => by
    rw [at_first m c ⟨0, h⟩ rfl p o, zero_add]
    show _ = ∑ k ∈ Finset.range 1, blockSum m c (8 * (0 / 8) + k) p o
    rw [Finset.sum_range_one]
  | n + 1, h, p, o => by
    by_cases h0 : (n + 1) % 8 = 0
    · have e : 8 * ((n + 1) / 8) + 0 = n + 1 := by omega
      rw [at_first m c ⟨n + 1, h⟩ h0 p o, zero_add, h0, zero_add, Finset.sum_range_one, e]
    · rw [at_later m c ⟨n + 1, h⟩ h0 p o]
      show outsAt0 m c n _ (ix2 p o) + blockSum m c (n + 1) p o = _
      rw [outsAt_eq c n (Nat.lt_of_succ_lt h) p o]
      have e1 : (n + 1) % 8 = n % 8 + 1 := by omega
      have e2 : (n + 1) / 8 = n / 8 := by omega
      have e3 : 8 * (n / 8) + (n % 8 + 1) = n + 1 := by omega
      rw [e1, e2, Finset.sum_range_succ _ (n % 8 + 1), e3]

end Cert.KernelIdeal.RunningSum

end
-- ==== Proof.KernelValue.lean ====
/-
  What the kernel's result array holds: the layer of its argument arrays.

  After the last tile of an output block the running total is the whole contraction (the eight tiles' partial
  products add up to it), so the block written back is a block of the tiled layer over the arrays the region works
  on; the written-back blocks tile the padded output; the result is its first 11008 columns; and on those columns the
  region's arrays are the arguments', so the tiled layer is the layer.
-/
import proofs.«129076_j3736621547692_1_alg».proof.Proof.Gen.KernelIdeal.Frame
import proofs.«129076_j3736621547692_1_alg».proof.Proof.Dequant
import proofs.«129076_j3736621547692_1_alg».proof.Proof.Blocks
import proofs.«129076_j3736621547692_1_alg».proof.Proof.RegionEntry
import proofs.«129076_j3736621547692_1_alg».proof.Proof.RunningSum
import Idealize.ShloMosaic.Lib.Pipeline.Value
import Idealize.ShloMosaic.Lib.ValueIdx
import Idealize.ShloMosaic.PureOps.Ideal.Laws

noncomputable section

namespace Cert.KernelIdeal.KernelValue

open Idealize.ShloMosaic Idealize.ShloMosaic.TcCoe Idealize.ShloMosaic.ValueIdx Idealize.SL.Sem
open Cert.KernelIdeal Cert.KernelIdeal.Gen Cert.Dequant
open Idealize.ShloMosaic.Pipeline (Dat)

variable (m : (ℓ : Loc nD τ sig) → Buf (Elt Ideal) ℓ) (ρ : Dev nD → PrngReg)

/-! ## The arrays the region works on -/

/-- The activations, the padded codes and the tile-major padded scales, as the region finds them. -/
abbrev X (c : Dev nD) : FVec Ideal ⟨2, ![4096, 4096]⟩ .bf16 := V m c main_v2
abbrev Q (c : Dev nD) : IVec ⟨2, ![11264, 4096]⟩ 32 := V m c main_v0
abbrev S (c : Dev nD) : FVec Ideal ⟨3, ![8, 11264, 4]⟩ .f32 := V m c main_v4

theorem ix2_congr {a b : ℕ} {p p' : Fin a} {q q' : Fin b} (hp : p.val = p'.val) (hq : q.val = q'.val) : ix2 p q = ix2 p' q' := by
  obtain rfl := Fin.ext hp
  obtain rfl := Fin.ext hq
  rfl

theorem ix3_congr {a b d : ℕ} {p p' : Fin a} {q q' : Fin b} {r r' : Fin d} (hp : p.val = p'.val) (hq : q.val = q'.val)
    (hr : r.val = r'.val) : ix3 p q r = ix3 p' q' r' := by
  obtain rfl := Fin.ext hp
  obtain rfl := Fin.ext hq
  obtain rfl := Fin.ext hr
  rfl

/-! ## One grid point's partial product is one tile's -/

/-- Point `8 * u + k` works on tile `k` of output block `u`: activation rows `2048 * (u / 11) + ·`, output rows
    `1024 * (u % 11) + ·`. Its partial product at `(p, o)` is tile `k`'s term of the layer at that row pair. -/
theorem blockSum_eq (c : Dev nD) (u : ℕ) (k : Fin 8) (h : 8 * u + k.val < cfg0.N) (p : Fin 2048) (o : Fin 1024)
    (r : Fin 4096) (o' : Fin 11264) (hr : r.val = u / 11 * 2048 + p.val) (ho : o'.val = u % 11 * 1024 + o.val) :
    RunningSum.blockSum m c (8 * u + k.val) p o = tileSum (X m c) (Q m c) (S m c) r o' k := by
  have hN : 8 * u + k.val < 176 := lt_of_lt_of_eq h (show cfg0.N = 176 from N_0)
  have hk := k.isLt
  have hp := p.isLt
  have hoo := o.isLt
  unfold RunningSum.blockSum
  rw [dif_pos h]
  unfold RunningSum.tileDot tileSum
  refine Finset.sum_congr rfl fun e _ => ?_
  have he := e.isLt
  have e0 := Blocks.xblk_apply m c ⟨8 * u + k.val, h⟩ p e (by show (8 * u + k.val) / 88 * 2048 + p.val < 4096; omega)
    (by show (8 * u + k.val) % 8 * 512 + e.val < 4096; omega)
  have e1 := Blocks.qblk_apply m c ⟨8 * u + k.val, h⟩ o e (by show (8 * u + k.val) / 8 % 11 * 1024 + o.val < 11264; omega)
    (by show (8 * u + k.val) % 8 * 512 + e.val < 4096; omega)
  have e2 := Blocks.sblk_apply m c ⟨8 * u + k.val, h⟩ (0 : Fin 1) o (lane e) (by show (8 * u + k.val) % 8 < 8; omega)
    (by show (8 * u + k.val) / 8 % 11 * 1024 + o.val < 11264; omega)
  rw [e0, e1, e2]
  have i0 : (ix2 (⟨(8 * u + k.val) / 88 * 2048 + p.val, by omega⟩ : Fin 4096) (⟨(8 * u + k.val) % 8 * 512 + e.val, by omega⟩ : Fin 4096))
      = ix2 r (feat k e) := ix2_congr (by show (8 * u + k.val) / 88 * 2048 + p.val = r.val; omega)
        (by show (8 * u + k.val) % 8 * 512 + e.val = k.val * 512 + e.val; omega)
  have i1 : (ix2 (⟨(8 * u + k.val) / 8 % 11 * 1024 + o.val, by omega⟩ : Fin 11264) (⟨(8 * u + k.val) % 8 * 512 + e.val, by omega⟩ : Fin 4096))
      = ix2 o' (feat k e) := ix2_congr (by show (8 * u + k.val) / 8 % 11 * 1024 + o.val = o'.val; omega)
        (by show (8 * u + k.val) % 8 * 512 + e.val = k.val * 512 + e.val; omega)
  have i2 : (ix3 (⟨(8 * u + k.val) % 8, by omega⟩ : Fin 8) (⟨(8 * u + k.val) / 8 % 11 * 1024 + o.val, by omega⟩ : Fin 11264) (lane e))
      = ix3 k o' (lane e) := ix3_congr (by show (8 * u + k.val) % 8 = k.val; omega)
        (by show (8 * u + k.val) / 8 % 11 * 1024 + o.val = o'.val; omega) rfl
  rw [i0, i1, i2]

/-! ## The last tile's running total is the layer -/

/-- After the last tile of an output block (a point `t` with `t % 8 = 7`) the staging buffer holds, at `j`, the layer's
    value at activation row `2048 * (t / 88) + j₀` and output row `1024 * (t / 8 % 11) + j₁`: the eight tiles' partial
    products are the whole contraction. -/
theorem total_eq (c : Dev nD) (t : Fin cfg0.N) (h7 : t.val % 8 = 7) (j : S2048x1024.Idx) (i : S4096x11264.Idx)
    (h0 : (i 0).val = t.val / 88 * 2048 + (j 0).val) (h1 : (i 1).val = t.val / 8 % 11 * 1024 + (j 1).val) :
    outsAt0 m c t.val t.isLt j = Gtiled (X m c) (Q m c) (S m c) i := by
  obtain ⟨p, o, rfl⟩ : ∃ (p : Fin 2048) (o : Fin 1024), j = ix2 p o := ⟨j 0, j 1, eq_ix2 j⟩
  obtain ⟨r, o', rfl⟩ : ∃ (r : Fin 4096) (o' : Fin 11264), i = ix2 r o' := ⟨i 0, i 1, eq_ix2 i⟩
  have hN : t.val < 176 := lt_of_lt_of_eq t.isLt (show cfg0.N = 176 from N_0)
  rw [RunningSum.outsAt_eq m c t.val t.isLt p o, h7]
  show ∑ k ∈ Finset.range 8, RunningSum.blockSum m c (8 * (t.val / 8) + k) p o = _
  rw [← Fin.sum_univ_eq_sum_range (fun k => RunningSum.blockSum m c (8 * (t.val / 8) + k) p o) 8]
  refine (Finset.sum_congr rfl fun k _ => ?_).trans (sum_tileSum (X m c) (Q m c) (S m c) r o')
  have hk := k.isLt
  exact blockSum_eq m c (t.val / 8) k (by have hN' : cfg0.N = 176 := N_0; omega) p o r o'
    (by show r.val = t.val / 8 / 11 * 2048 + p.val; have : r.val = t.val / 88 * 2048 + p.val := h0; omega)
    (by show o'.val = t.val / 8 % 11 * 1024 + o.val; exact h1)

/-! ## From the blocks to the array -/

/-- The output window's block index at point `t`: block row `t / 88`, block column `t / 8 % 11`. -/
theorem idx3 : ∀ t : Fin cfg0.N, win0_3.index t (0 : Fin 2) = t.val / 88 ∧ win0_3.index t (1 : Fin 2) = t.val / 8 % 11 :=
  (by decide +kernel : ∀ t : Fin grid0.N, win0_3.index t (0 : Fin 2) = t.val / 88 ∧ win0_3.index t (1 : Fin 2) = t.val / 8 % 11)

/-- What a writing-back point writes back is its block of the layer's values. -/
theorem flushed_eq (c : Dev nD) (t : Fin cfg0.N) (hf : (cfg0.win 3).flush t = true) :
    (dats m 0 c).flushed 3 t = ((cfg0.win 3).blk t).view.read (Elt Ideal) (Gtiled (X m c) (Q m c) (S m c)) := by
  have h7 : t.val % 8 = 7 := (flush0_3 t).mp hf
  obtain ⟨q0, q1⟩ := idx3 t
  show (cfg0.win 3).cut (grid0.coords t) ((dats m 0 c).after 3 t) = _
  rw [after0_3]
  funext j
  show outsAt0 m c t.val t.isLt j = Gtiled (X m c) (Q m c) (S m c) (((cfg0.win 3).blk t).view.emb j)
  refine total_eq m c t h7 j _ ?_ ?_
  · show win0_3.index t (0 : Fin 2) * 2048 + 1 * (j 0).val = t.val / 88 * 2048 + (j 0).val
    omega
  · show win0_3.index t (1 : Fin 2) * 1024 + 1 * (j 1).val = t.val / 8 % 11 * 1024 + (j 1).val
    omega

/-- An index of the padded output is in point `t`'s block iff each coordinate is in the block's range on its axis. -/
theorem mem_blk (t : Fin cfg0.N) (i : S4096x11264.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v5).slice (win0_3.rect t)).set ↔ _
  rw [View.set_slice_whole, Rect.mem_set_unit]
  exact Iff.rfl

/-- Every entry of the padded output lies in the block of the last-tile point of its block row and block column. -/
theorem cover (i : S4096x11264.Idx) : ∃ t : Fin cfg0.N, (cfg0.win 3).flush t = true ∧ i ∈ ((cfg0.win 3).blk t).view.set := by
  have hi0 : (i 0).val < 4096 := (i 0).isLt
  have hi1 : (i 1).val < 11264 := (i 1).isLt
  let t : Fin cfg0.N := ⟨((i 0).val / 2048 * 11 + (i 1).val / 1024) * 8 + 7, by rw [show cfg0.N = 176 from N_0]; omega⟩
  have tv : t.val = ((i 0).val / 2048 * 11 + (i 1).val / 1024) * 8 + 7 := rfl
  obtain ⟨q0, q1⟩ := idx3 t
  refine ⟨t, (flush0_3 t).mpr (by rw [tv]; omega), ?_⟩
  rw [mem_blk]
  intro a
  match a with
  | ⟨0, _⟩ =>
    show win0_3.index t (0 : Fin 2) * 2048 ≤ (i 0).val ∧ (i 0).val < win0_3.index t (0 : Fin 2) * 2048 + 2048
    rw [q0, tv]; omega
  | ⟨1, _⟩ =>
    show win0_3.index t (1 : Fin 2) * 1024 ≤ (i 1).val ∧ (i 1).val < win0_3.index t (1 : Fin 2) * 1024 + 1024
    rw [q1, tv]; omega

/-- THE PADDED OUTPUT after the region: the layer over the padded codes and scales. -/
theorem final (c : Dev nD) : (dats m 0 c).arrAt 3 cfg0.N = Gtiled (X m c) (Q m c) (S m c) :=
  (dats m 0 c).arrAt_eq_of_cover 3 (Gtiled (X m c) (Q m c) (S m c)) (flushed_eq m c) cover

/-! ## The slice after the region, and the argument arrays -/

/-- The program's result: the first 11008 output rows of the padded output. -/
theorem tail_eq (c : Dev nD) : Pipeline.afterTail₀ cfgs (dats m) 0 (V0 m) [hostOps1] c main_v6
    = extractStridedSlice S4096x11008 ![0, 0] (Gtiled (X m c) (Q m c) (S m c)) slices_S4096x11264_S4096x11008_0_0 := by
  unfold Pipeline.afterTail₀
  show StableHlo.after hostOps1 _ (Proc.devRef .tc main_v6) = _
  after_results
  refine congrArg (fun A : S4096x11264.Idx → EReal => extractStridedSlice S4096x11008 ![0, 0] A slices_S4096x11264_S4096x11008_0_0) ?_
  exact (Pipeline.withArrays_arr spec0 launch0.win.arr_inj c _ _ 3).trans (final m c)

/-- Below the padding the tiled layer is the layer: when the activations agree, a code of an argument row is the
    argument's, and tile `k`, group `g` of the tile-major scales is group `4 * k + g` of the argument's — feature `n` lies
    in tile `n / 512` and group `n % 512 / 128` of it, which is group `n / 128`. -/
theorem tiled_eq_layer (X : FVec Ideal ⟨2, ![4096, 4096]⟩ .bf16) (Q : IVec ⟨2, ![11264, 4096]⟩ 32) (S : FVec Ideal ⟨3, ![8, 11264, 4]⟩ .f32)
    (x : FVec Ideal ⟨2, ![4096, 4096]⟩ .f32) (q : IVec ⟨2, ![11008, 4096]⟩ 32) (s : FVec Ideal ⟨2, ![11008, 32]⟩ .f32)
    (hx : ∀ (r n : Fin 4096), X (ix2 r n) = x (ix2 r n))
    (hq : ∀ (o : Fin 11008) (n : Fin 4096) (ho : o.val < 11264), Q (ix2 (⟨o.val, ho⟩ : Fin 11264) n) = q (ix2 o n))
    (hs : ∀ (k : Fin 8) (o : Fin 11008) (g : Fin 4) (ho : o.val < 11264) (hg : k.val * 4 + g.val < 32),
      S (ix3 k (⟨o.val, ho⟩ : Fin 11264) g) = s (ix2 o (⟨k.val * 4 + g.val, hg⟩ : Fin 32)))
    (r : Fin 4096) (o : Fin 11008) (ho : o.val < 11264) :
    Gtiled X Q S (ix2 r (⟨o.val, ho⟩ : Fin 11264)) = G x q s (ix2 r o) := by
  show ∑ n : Fin 4096, X (ix2 r n) * (FloatOps.sitofp (F := Ideal) .f32 (Q (ix2 (⟨o.val, ho⟩ : Fin 11264) n))
      * S (ix3 (tile n) (⟨o.val, ho⟩ : Fin 11264) (sub n)))
    = ∑ n : Fin 4096, x (ix2 r n) * (FloatOps.sitofp (F := Ideal) .f32 (q (ix2 o n)) * s (ix2 o (grp n)))
  refine Finset.sum_congr rfl fun n _ => ?_
  have hn := n.isLt
  have hg : (tile n).val * 4 + (sub n).val < 32 := by show n.val / 512 * 4 + n.val % 512 / 128 < 32; omega
  rw [hx r n, hq o n ho, hs (tile n) o (sub n) ho hg,
    show (⟨(tile n).val * 4 + (sub n).val, hg⟩ : Fin 32) = grp n from
      Fin.ext (by show n.val / 512 * 4 + n.val % 512 / 128 = n.val / 128; omega)]

/-- The first 11008 output rows of the layer over the region's arrays are the layer over the arguments. -/
theorem layer_eq (c : Dev nD) :
    extractStridedSlice S4096x11008 ![0, 0] (Gtiled (X m c) (Q m c) (S m c)) slices_S4096x11264_S4096x11008_0_0
      = G (m ((c : Thread nD τ).loc main_arg0)) (m ((c : Thread nD τ).loc main_arg1)) (m ((c : Thread nD τ).loc main_arg2)) := by
  funext i
  obtain ⟨r, o, rfl⟩ : ∃ (r : Fin 4096) (o : Fin 11008), i = ix2 r o := ⟨i 0, i 1, eq_ix2 i⟩
  have ho := o.isLt
  have ho' : o.val < 11264 := by omega
  rw [extractStridedSlice_apply ![0, 0] _ slices_S4096x11264_S4096x11008_0_0 (ix2 r o) (ix2 r (⟨o.val, ho'⟩ : Fin 11264))
    (fun a => match a with
      | ⟨0, _⟩ => by show r.val = 0 + r.val; omega
      | ⟨1, _⟩ => by show o.val = 0 + o.val; omega)]
  exact tiled_eq_layer (X m c) (Q m c) (S m c) _ _ _ (fun r n => congrFun (RegionEntry.x_entry m c) (ix2 r n))
    (fun o n ho => RegionEntry.q_entry m c o n ho) (fun k o g ho hg => RegionEntry.s_entry m c k o g ho hg) r o ho'

/-- THE KERNEL'S RUN, READ: every weakly fair execution ends with the result array at the layer of the argument
    arrays, and the arguments unchanged. -/
theorem run : θ_run defs (onTc (τ := τ) (main (F := Ideal))) ⟨m, fun _ => 0, ρ⟩ fun r => ∀ c : Dev nD,
      r.2.mem ((c.tc : Thread nD τ).loc main_v6)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans ((tail_eq m c).trans (layer_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.RefValue.lean ====
/-
  The reference computes the layer.

  It turns the codes into reals, views each row of 4096 features as 32 groups of 128, multiplies group `g` of row
  `o` by the scale `s[o, g]`, views the row as 4096 features again — position `(o, n)` goes to `(o, n / 128, n % 128)`
  and back to itself — and contracts the activations against these weights, rows against rows.
-/
import proofs.«129076_j3736621547692_1_alg».proof.Proof.Gen.ReferenceIdeal.Read
import proofs.«129076_j3736621547692_1_alg».proof.Proof.Dequant
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.Dequant

/-- The reference computes the layer: its dequantized weight is `q[o, n] * s[o, n / 128]` (the reshape into groups of
    128 and back is the identity on positions), and its contraction is the layer's sum. -/
theorem ref_eq (x0 : (⟨S4096x4096, .f32⟩ : BufTy).Contents (Elt Ideal)) (x1 : (⟨S11008x4096, .i32⟩ : BufTy).Contents (Elt Ideal))
    (x2 : (⟨S11008x32, .f32⟩ : BufTy).Contents (Elt Ideal)) :
    Cert.ReferenceIdeal.Read.val_main_v6 (F := Ideal) x0 x1 x2 = G x0 x1 x2 := by
  funext i
  rw [Read.val_main_v6_apply]
  show _ = ∑ n : Fin 4096, x0 (ix2 (i 0) n) * (FloatOps.sitofp (F := Ideal) .f32 (x1 (ix2 (i 1) n)) * x2 (ix2 (i 1) (grp n)))
  refine Finset.sum_congr rfl fun n _ => ?_
  have hn : n.val < 4096 := n.isLt
  have ho : (i 1).val < 11008 := (i 1).isLt
  -- the left operand is read at row `i 0`, feature `n`
  have el : Read.lidx_main_v6 i n = ix2 (i 0) n :=
    funext fun a => Fin.ext (by match a with | ⟨0, _⟩ => rfl | ⟨1, _⟩ => rfl)
  -- splitting position `o * 4096 + n` into (row, group, lane) and flattening it again gives back `(o, n)`
  have eq : Read.idx_main_v1 (Read.idx_main_v5 (Read.ridx_main_v6 i n)) = ix2 (i 1) n :=
    funext fun a => Fin.ext (by
      match a with
      | ⟨0, _⟩ =>
        show ((((i 1).val * 4096 + n.val) / 4096 * 32 + ((i 1).val * 4096 + n.val) / 128 % 32) * 128
          + ((i 1).val * 4096 + n.val) % 128) / 4096 = (i 1).val
        omega
      | ⟨1, _⟩ =>
        show ((((i 1).val * 4096 + n.val) / 4096 * 32 + ((i 1).val * 4096 + n.val) / 128 % 32) * 128
          + ((i 1).val * 4096 + n.val) % 128) % 4096 = n.val
        omega)
  -- the scale broadcast along the lanes is read at row `o`, group `n / 128`
  have es : Read.idx_main_v2 (Read.idx_main_v3 (Read.idx_main_v5 (Read.ridx_main_v6 i n))) = ix2 (i 1) (grp n) :=
    funext fun a => Fin.ext (by
      match a with
      | ⟨0, _⟩ => show ((i 1).val * 4096 + n.val) / 4096 = (i 1).val; omega
      | ⟨1, _⟩ => show ((i 1).val * 4096 + n.val) / 128 % 32 = n.val / 128; omega)
  rw [Read.val_main_v5_apply, Read.val_main_v4_apply, Read.val_main_v1_apply, Read.val_main_v0_apply,
    Read.val_main_v3_apply, Read.val_main_v2_apply, el, eq, es, Ideal.mulf_def]
  rfl

end Cert.ReferenceIdeal.RefValue

end
-- ==== Proof.lean ====
/-
  A weight-only quantized linear layer, tiled: the kernel against the one-line reference.

  Both programs compute `y[r, o] = ∑ₙ x[r, n] * (q[o, n] * s[o, n / 128])` over 4096 input features in groups of 128
  (Proof/Dequant.lean states the layer with no program in sight).

  The reference dequantizes the whole weight and contracts it with the activations once (Proof/RefValue.lean reads
  its operations at an index: the reshape into groups and back is the identity on positions).

  The kernel pads the codes and the scales to 11264 output rows, stores the scales tile-major, and walks a grid of
  2 x 11 output blocks with 8 tiles of 512 features each: at the first tile of a block it clears a running total, at
  every tile it adds the tile's partial product (Proof/BodyValue.lean: the body's arithmetic at an entry;
  Proof/CaseValues.lean: what each of the two cases leaves; Proof/RunningSum.lean: the running total after every
  point, by induction along the grid), and after the last tile the block is written back.  Addition of extended
  reals is associative and commutative, so the eight partial products are the whole contraction (Proof/Dequant.lean,
  `sum_tileSum`) and no finiteness of the inputs is used.  The written-back blocks tile the padded output, the
  result is its first 11008 columns, and below the padding the region's arrays are the arguments'
  (Proof/Blocks.lean, Proof/RegionEntry.lean, Proof/KernelValue.lean).  The changes of float format are the identity
  on the extended reals, and the integer codes are read as the real numbers they are on both sides.
-/
import proofs.«129076_j3736621547692_1_alg».proof.Defs
import proofs.«129076_j3736621547692_1_alg».proof.Proof.Gen.Kernel
import proofs.«129076_j3736621547692_1_alg».proof.Proof.Gen.Kernel.Frame
import proofs.«129076_j3736621547692_1_alg».proof.Proof.Gen.KernelIdeal
import proofs.«129076_j3736621547692_1_alg».proof.Proof.Gen.KernelIdeal.Frame
import proofs.«129076_j3736621547692_1_alg».proof.Proof.Gen.ReferenceIdeal
import proofs.«129076_j3736621547692_1_alg».proof.Proof.Gen.ReferenceIdeal.Run
import proofs.«129076_j3736621547692_1_alg».proof.Proof.Gen.ReferenceIdeal.Read
import proofs.«129076_j3736621547692_1_alg».proof.Proof.Gen.Pre_finite_inputs
import proofs.«129076_j3736621547692_1_alg».proof.Proof.Dequant
import proofs.«129076_j3736621547692_1_alg».proof.Proof.KernelValue
import proofs.«129076_j3736621547692_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- Over the extended reals both programs end with the layer of the same argument arrays. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
